-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S2048x1024 .f32) (main_arg8 : FVec F S1x1024 .f32) (main_arg9 : FVec F S2048x1024 .f32) (main_arg10 : FVec F S1x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1x1024 .f32) (main_arg5 : FVec F S2048x1024 .f32) (main_arg6 : FVec F S1x1024 .f32) (main_arg7 : FVec F S2048x1024 .f32) (main_arg8 : FVec F S1x1024 .f32) (main_arg9 : FVec F S2048x1024 .f32) (main_arg10 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1x1024 .f32) (main_arg5 : FVec F S2048x1024 .f32) (main_arg6 : FVec F S1x1024 .f32) (main_arg7 : FVec F S2048x1024 .f32) (main_arg8 : FVec F S1x1024 .f32) (main_arg9 : FVec F S2048x1024 .f32) (main_arg10 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1x1024 : Shape := ⟨2, ![1, 1024]⟩
abbrev S2048x4096 : Shape := ⟨2, ![2048, 4096]⟩
abbrev S1x4096 : Shape := ⟨2, ![1, 4096]⟩
abbrev S512x1024 : Shape := ⟨2, ![512, 1024]⟩
abbrev S1024x4096 : Shape := ⟨2, ![1024, 4096]⟩
abbrev S512x4096 : Shape := ⟨2, ![512, 4096]⟩

abbrev nBuf : Space → Nat
  | .hbm => 15
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S1x1024, .f32⟩
  | .hbm, ⟨11, _⟩ => ⟨S2048x4096, .f32⟩
  | .hbm, ⟨12, _⟩ => ⟨S2048x4096, .bf16⟩
  | .hbm, ⟨13, _⟩ => ⟨S1x4096, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x4096, .bf16⟩
  | .local _ .vmem, ⟨7, _⟩ => ⟨S1x4096, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1x1024_S1x1024_S1x1024_S1x1024_S1x4096_d1 : Shape.Concatenates [S1x1024, S1x1024, S1x1024, S1x1024] S1x4096 1
  inb_S512x1024_S512x1024_0_0 : ∀ a, (![0, 0] : Fin 2 → Nat) a + S512x1024.size a ≤ S512x1024.size a
  h_S512x1024 : 0 < S512x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1x1024 : Shape := ⟨2, ![1, 1024]⟩
abbrev S4096x2048 : Shape := ⟨2, ![4096, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S1x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.KernelFrame.lean ====
/-
  The frame of this program, at any float instance: every weakly fair execution of @main ends, nothing
  faults, and the eleven argument arrays end as they were launched. The same run also names what the
  result array holds at the end, block by block, which the value proof builds on.

  The program is three host operations and one launch.
  * The host operations lay the four gate weight matrices side by side into one 2048 x 4096 array
    (column 1024 g + n of the packed array is column n of gate g's matrix), narrow that array, and lay
    the four bias rows side by side into one 1 x 4096 row. Each writes a buffer of its own, so every
    argument array reaches the launch with its launch contents.
  * The launch walks a grid of 8 points. Point t stages rows 512 t .. 512 t + 511 of x, of h and of c,
    the whole packed weight array and the whole packed bias row (these two are fetched once, at the
    first point, and found again in place at the later ones), and writes back rows
    512 t .. 512 t + 511 of the result.
  * The body at a point reads the five staged inputs through whole rectangles (the packed weights
    through its upper and its lower half), and overwrites the whole output block with one value: a
    function of the six pieces read. It also reads the output block before overwriting it; nothing
    depends on what that read returns.
  So what the output's staging buffer holds after the body is that one value laid over the whole
  block, each input's staging buffer holds its block before and after, and the body keeps nothing
  of its own between points.
-/
import proofs.«125786_j61220463837880_2_alg».proof.Proof.Gen.Kernel.Launch
import proofs.«125786_j61220463837880_2_alg».proof.Proof.Gen.Kernel.Skeleton
import proofs.«125786_j61220463837880_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is reached -/

/-- Core `c`'s buffers after the three host operations, from the launch memory. -/
abbrev V (c : Dev nD) (b : Ref sig .tc) : Buf (Elt F) ((c : Thread nD τ).loc b) :=
  StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- @main is the three host operations, then the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three the host operations write (the packed weights, their narrowed
    copy, the packed biases) reaches the launch as it was launched. -/
theorem V_of_ne (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_of_ne m c _ (by decide) (by decide) (by decide)
theorem V_main_arg1 (c : Dev nD) : V m c main_arg1 = m ((c : Thread nD τ).loc main_arg1) := V_of_ne m c _ (by decide) (by decide) (by decide)
theorem V_main_arg2 (c : Dev nD) : V m c main_arg2 = m ((c : Thread nD τ).loc main_arg2) := V_of_ne m c _ (by decide) (by decide) (by decide)
theorem V_main_arg3 (c : Dev nD) : V m c main_arg3 = m ((c : Thread nD τ).loc main_arg3) := V_of_ne m c _ (by decide) (by decide) (by decide)
theorem V_main_arg4 (c : Dev nD) : V m c main_arg4 = m ((c : Thread nD τ).loc main_arg4) := V_of_ne m c _ (by decide) (by decide) (by decide)
theorem V_main_arg5 (c : Dev nD) : V m c main_arg5 = m ((c : Thread nD τ).loc main_arg5) := V_of_ne m c _ (by decide) (by decide) (by decide)
theorem V_main_arg6 (c : Dev nD) : V m c main_arg6 = m ((c : Thread nD τ).loc main_arg6) := V_of_ne m c _ (by decide) (by decide) (by decide)
theorem V_main_arg7 (c : Dev nD) : V m c main_arg7 = m ((c : Thread nD τ).loc main_arg7) := V_of_ne m c _ (by decide) (by decide) (by decide)
theorem V_main_arg8 (c : Dev nD) : V m c main_arg8 = m ((c : Thread nD τ).loc main_arg8) := V_of_ne m c _ (by decide) (by decide) (by decide)
theorem V_main_arg9 (c : Dev nD) : V m c main_arg9 = m ((c : Thread nD τ).loc main_arg9) := V_of_ne m c _ (by decide) (by decide) (by decide)
theorem V_main_arg10 (c : Dev nD) : V m c main_arg10 = m ((c : Thread nD τ).loc main_arg10) := V_of_ne m c _ (by decide) (by decide) (by decide)

/-! ## A window's block at a point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds the window's block at every point, whether the
    point fetched it or not: a point that does not fetch has the same block index as the one before,
    and the body left the block in place. Stated for any proof data over these arrays whose body
    leaves the input blocks in place. -/

theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_h_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_c_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_b_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- A whole 512 x 1024 block (x, h, c and the output). -/
abbrev rBlk : Rect S512x1024 := Rect.unit (s := S512x1024) ![0, 0] S512x1024.size inb_S512x1024_S512x1024_0_0
/-- Rows 0 .. 1023 of the packed weights: the rows that meet x. -/
abbrev rTop : Rect S2048x4096 := Rect.unit (s := S2048x4096) ![0, 0] S1024x4096.size inb_S2048x4096_S1024x4096_0_0
/-- Rows 1024 .. 2047 of the packed weights: the rows that meet h. -/
abbrev rBot : Rect S2048x4096 := Rect.unit (s := S2048x4096) ![1024, 0] S1024x4096.size inb_S2048x4096_S1024x4096_1024_0
/-- The whole packed bias row. -/
abbrev rBias : Rect S1x4096 := Rect.unit (s := S1x4096) ![0, 0] S1x4096.size inb_S1x4096_S1x4096_0_0

/-! ## What the body leaves in the output block -/

/-- The output's staging buffer after the body, from what the five input buffers read: the body's one
    value, over the whole block. -/
def outBlk (x0 x1 x2 : Vec F S512x1024 .f32) (x3 : Vec F S2048x4096 .bf16) (x4 : Vec F S1x4096 .f32) : Vec F S512x1024 .f32 :=
  View.canon [⟨rBlk, k0_pay1 (View.ld x0 rBlk) (View.ld x1 rBlk) (View.ld x3 rTop) (View.ld x3 rBot) (View.ld x4 rBias) (View.ld x2 rBlk)⟩]

/-- The one store covers the block. -/
theorem cover_out (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

/-! ## The body's triple -/

set_option maxHeartbeats 1000000 in
/-- The body on whole staging memrefs — the five inputs' reading `x0 .. x4`, the output's holding anything —
    runs to its end holding the inputs' as they were and the output's at `outBlk` of what the inputs read. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S512x1024 .f32) (harg6 : arg6.IsWhole)
    (x0 x1 x2 : Vec F S512x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The proof data -/

/-- On core `c`: the arrays as the launch finds them; after the body at point `t` each input's buffer at
    its block and the output's at `outBlk` of the five input blocks; between points only the buffers
    that are no staging buffer and the generator register, at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_out (c : Dev nD) (t : Fin cfg0.N) :
    (dats m 0 c).after 5 t = outBlk (iblk m c 0 t) (iblk m c 1 t) (iblk m c 2 t) (iblk m c 3 t) (iblk m c 4 t) := by dsimp only [dats]

theorem before_x (c : Dev nD) (t : Fin cfg0.N) (d) : (dats m 0 c).before 0 t d = iblk m c 0 t :=
  before_x_of m (dats m 0 c) (A_eq m c 0) (after_x m c) t d
theorem before_h (c : Dev nD) (t : Fin cfg0.N) (d) : (dats m 0 c).before 1 t d = iblk m c 1 t :=
  before_h_of m (dats m 0 c) (A_eq m c 1) (after_h m c) t d
theorem before_c (c : Dev nD) (t : Fin cfg0.N) (d) : (dats m 0 c).before 2 t d = iblk m c 2 t :=
  before_c_of m (dats m 0 c) (A_eq m c 2) (after_c m c) t d
theorem before_w (c : Dev nD) (t : Fin cfg0.N) (d) : (dats m 0 c).before 3 t d = iblk m c 3 t :=
  before_w_of m (dats m 0 c) (A_eq m c 3) (after_w m c) t d
theorem before_b (c : Dev nD) (t : Fin cfg0.N) (d) : (dats m 0 c).before 4 t d = iblk m c 4 t :=
  before_b_of m (dats m 0 c) (A_eq m c 4) (after_b m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the
    body does not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_w, before_b]
  rw [show (dats m 0 c).Φ t.succ = (dats m 0 c).Φ t.castSucc from rfl,
    show (dats m 0 c).owesAt () t.succ = (dats m 0 c).owesAt () t.castSucc from rfl,
    after_x, after_h, after_c, after_w, after_b, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, and at the end every array of the launch holds what the
    proof data say — an input its contents at the launch, the result those overwritten block by block
    by what the body left — and every other buffer what it held when the launch was reached. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eleven argument arrays at the end: x, h and c are inputs of the launch, which writes back no
    input; the eight weight and bias arrays are no array of the launch, and no host operation writes
    them. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c)⟩

/-- The frame: the program runs to its end and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.Kernel.Hand

end
-- ==== Proof.KernelIdealFrame.lean ====
/-
  The frame of this program, at any float instance: every weakly fair execution of @main ends, nothing
  faults, and the eleven argument arrays end as they were launched. The same run also names what the
  result array holds at the end, block by block, which the value proof builds on.

  The program is three host operations and one launch.
  * The host operations lay the four gate weight matrices side by side into one 2048 x 4096 array
    (column 1024 g + n of the packed array is column n of gate g's matrix), narrow that array, and lay
    the four bias rows side by side into one 1 x 4096 row. Each writes a buffer of its own, so every
    argument array reaches the launch with its launch contents.
  * The launch walks a grid of 8 points. Point t stages rows 512 t .. 512 t + 511 of x, of h and of c,
    the whole packed weight array and the whole packed bias row (these two are fetched once, at the
    first point, and found again in place at the later ones), and writes back rows
    512 t .. 512 t + 511 of the result.
  * The body at a point reads the five staged inputs through whole rectangles (the packed weights
    through its upper and its lower half), and overwrites the whole output block with one value: a
    function of the six pieces read. It also reads the output block before overwriting it; nothing
    depends on what that read returns.
  So what the output's staging buffer holds after the body is that one value laid over the whole
  block, each input's staging buffer holds its block before and after, and the body keeps nothing
  of its own between points.
-/
import proofs.«125786_j61220463837880_2_alg».proof.Proof.Gen.KernelIdeal.Launch
import proofs.«125786_j61220463837880_2_alg».proof.Proof.Gen.KernelIdeal.Skeleton
import proofs.«125786_j61220463837880_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch is reached -/

/-- Core `c`'s buffers after the three host operations, from the launch memory. -/
abbrev V (c : Dev nD) (b : Ref sig .tc) : Buf (Elt F) ((c : Thread nD τ).loc b) :=
  StableHlo.after hostOps0 (fun b => m (c, b)) b

/-- None of the three host operations allocates a buffer. -/
theorem hostOps0_fresh : (hostOps0 : List (HloOp τ sig (Elt F))).Forall fun op => op.fresh = ∅ := by
  simp only [List.Forall]; repeat' constructor

/-- @main is the three host operations, then the launch. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three the host operations write (the packed weights, their narrowed
    copy, the packed biases) reaches the launch as it was launched. -/
theorem V_of_ne (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) := V_of_ne m c _ (by decide) (by decide) (by decide)
theorem V_main_arg1 (c : Dev nD) : V m c main_arg1 = m ((c : Thread nD τ).loc main_arg1) := V_of_ne m c _ (by decide) (by decide) (by decide)
theorem V_main_arg2 (c : Dev nD) : V m c main_arg2 = m ((c : Thread nD τ).loc main_arg2) := V_of_ne m c _ (by decide) (by decide) (by decide)
theorem V_main_arg3 (c : Dev nD) : V m c main_arg3 = m ((c : Thread nD τ).loc main_arg3) := V_of_ne m c _ (by decide) (by decide) (by decide)
theorem V_main_arg4 (c : Dev nD) : V m c main_arg4 = m ((c : Thread nD τ).loc main_arg4) := V_of_ne m c _ (by decide) (by decide) (by decide)
theorem V_main_arg5 (c : Dev nD) : V m c main_arg5 = m ((c : Thread nD τ).loc main_arg5) := V_of_ne m c _ (by decide) (by decide) (by decide)
theorem V_main_arg6 (c : Dev nD) : V m c main_arg6 = m ((c : Thread nD τ).loc main_arg6) := V_of_ne m c _ (by decide) (by decide) (by decide)
theorem V_main_arg7 (c : Dev nD) : V m c main_arg7 = m ((c : Thread nD τ).loc main_arg7) := V_of_ne m c _ (by decide) (by decide) (by decide)
theorem V_main_arg8 (c : Dev nD) : V m c main_arg8 = m ((c : Thread nD τ).loc main_arg8) := V_of_ne m c _ (by decide) (by decide) (by decide)
theorem V_main_arg9 (c : Dev nD) : V m c main_arg9 = m ((c : Thread nD τ).loc main_arg9) := V_of_ne m c _ (by decide) (by decide) (by decide)
theorem V_main_arg10 (c : Dev nD) : V m c main_arg10 = m ((c : Thread nD τ).loc main_arg10) := V_of_ne m c _ (by decide) (by decide) (by decide)

/-! ## A window's block at a point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds the window's block at every point, whether the
    point fetched it or not: a point that does not fetch has the same block index as the one before,
    and the body left the block in place. Stated for any proof data over these arrays whose body
    leaves the input blocks in place. -/

theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_h_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_c_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_b_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- A whole 512 x 1024 block (x, h, c and the output). -/
abbrev rBlk : Rect S512x1024 := Rect.unit (s := S512x1024) ![0, 0] S512x1024.size inb_S512x1024_S512x1024_0_0
/-- Rows 0 .. 1023 of the packed weights: the rows that meet x. -/
abbrev rTop : Rect S2048x4096 := Rect.unit (s := S2048x4096) ![0, 0] S1024x4096.size inb_S2048x4096_S1024x4096_0_0
/-- Rows 1024 .. 2047 of the packed weights: the rows that meet h. -/
abbrev rBot : Rect S2048x4096 := Rect.unit (s := S2048x4096) ![1024, 0] S1024x4096.size inb_S2048x4096_S1024x4096_1024_0
/-- The whole packed bias row. -/
abbrev rBias : Rect S1x4096 := Rect.unit (s := S1x4096) ![0, 0] S1x4096.size inb_S1x4096_S1x4096_0_0

/-! ## What the body leaves in the output block -/

/-- The output's staging buffer after the body, from what the five input buffers read: the body's one
    value, over the whole block. -/
def outBlk (x0 x1 x2 : Vec F S512x1024 .f32) (x3 : Vec F S2048x4096 .bf16) (x4 : Vec F S1x4096 .f32) : Vec F S512x1024 .f32 :=
  View.canon [⟨rBlk, k0_pay1 (View.ld x0 rBlk) (View.ld x1 rBlk) (View.ld x3 rTop) (View.ld x3 rBot) (View.ld x4 rBias) (View.ld x2 rBlk)⟩]

/-- The one store covers the block. -/
theorem cover_out (p0 : Vec F S512x1024 .f32) (y : S512x1024.Idx) :
    ∃ pc ∈ ([⟨rBlk, p0⟩] : List (View.Piece (Elt F) S512x1024 .f32)), y ∈ pc.1.set :=
  View.cover_of_tiled [⟨rBlk, p0⟩] S512x1024.size (by rfl) y

/-! ## The body's triple -/

set_option maxHeartbeats 1000000 in
/-- The body on whole staging memrefs — the five inputs' reading `x0 .. x4`, the output's holding anything —
    runs to its end holding the inputs' as they were and the output's at `outBlk` of what the inputs read. -/
theorem sound_kernel (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S512x1024 .f32) (harg6 : arg6.IsWhole)
    (x0 x1 x2 : Vec F S512x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The proof data -/

/-- On core `c`: the arrays as the launch finds them; after the body at point `t` each input's buffer at
    its block and the output's at `outBlk` of the five input blocks; between points only the buffers
    that are no staging buffer and the generator register, at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_out (c : Dev nD) (t : Fin cfg0.N) :
    (dats m 0 c).after 5 t = outBlk (iblk m c 0 t) (iblk m c 1 t) (iblk m c 2 t) (iblk m c 3 t) (iblk m c 4 t) := by dsimp only [dats]

theorem before_x (c : Dev nD) (t : Fin cfg0.N) (d) : (dats m 0 c).before 0 t d = iblk m c 0 t :=
  before_x_of m (dats m 0 c) (A_eq m c 0) (after_x m c) t d
theorem before_h (c : Dev nD) (t : Fin cfg0.N) (d) : (dats m 0 c).before 1 t d = iblk m c 1 t :=
  before_h_of m (dats m 0 c) (A_eq m c 1) (after_h m c) t d
theorem before_c (c : Dev nD) (t : Fin cfg0.N) (d) : (dats m 0 c).before 2 t d = iblk m c 2 t :=
  before_c_of m (dats m 0 c) (A_eq m c 2) (after_c m c) t d
theorem before_w (c : Dev nD) (t : Fin cfg0.N) (d) : (dats m 0 c).before 3 t d = iblk m c 3 t :=
  before_w_of m (dats m 0 c) (A_eq m c 3) (after_w m c) t d
theorem before_b (c : Dev nD) (t : Fin cfg0.N) (d) : (dats m 0 c).before 4 t d = iblk m c 4 t :=
  before_b_of m (dats m 0 c) (A_eq m c 4) (after_b m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the
    body does not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_w, before_b]
  rw [show (dats m 0 c).Φ t.succ = (dats m 0 c).Φ t.castSucc from rfl,
    show (dats m 0 c).owesAt () t.succ = (dats m 0 c).owesAt () t.castSucc from rfl,
    after_x, after_h, after_c, after_w, after_b, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, and at the end every array of the launch holds what the
    proof data say — an input its contents at the launch, the result those overwritten block by block
    by what the body left — and every other buffer what it held when the launch was reached. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The eleven argument arrays at the end: x, h and c are inputs of the launch, which writes back no
    input; the eight weight and bias arrays are no array of the launch, and no host operation writes
    them. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c)⟩

/-- The frame: the program runs to its end and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept m r h c) (run_main m ρ)

end Cert.KernelIdeal.Hand

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.KernelBody.lean ====
/-
  What the body computes at one grid point, one entry at a time.

  The body holds a block of 512 rows of x, of h and of c, the packed 2048 x 4096 weights as an upper and
  a lower half of 1024 rows each, and the packed 1 x 4096 bias row. It forms the 512 x 4096 accumulator

      acc(r, j) = sum_{k<1024} x(r,k) W_top(k,j) + sum_{k<1024} h(r,k) W_bot(k,j) + bias(0,j)

  (two matrix products into zero accumulators, added, plus the bias row spread over the rows; rounding x
  and h to a narrower format is the identity on exact values), cuts it into four 512 x 1024 column
  bands at offsets 0, 1024, 2048, 3072, and returns

      tanh( c(r,n) s(acc(r, n)) + s(acc(r, 1024 + n)) tanh(acc(r, 2048 + n)) ) s(acc(r, 3072 + n)),

  with s the logistic function.
-/
import proofs.«125786_j61220463837880_2_alg».proof.Proof.Gen.KernelIdeal.Skeleton
import proofs.«125786_j61220463837880_2_alg».proof.Proof.LibRowDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.RowDot

/-- Column o + n of the accumulator: column n of the band that starts at offset o. -/
abbrev colAt (o : Nat) (ho : o + 1024 ≤ 4096) (n : Fin 1024) : Fin 4096 := ⟨o + n.val, by have := n.isLt; omega⟩

/-- The accumulator at row r and column j. -/
def acc (xb hb : FVec Ideal S512x1024 .f32) (wt wb : FVec Ideal S1024x4096 .bf16) (bias : FVec Ideal S1x4096 .f32)
    (r : Fin 512) (j : Fin 4096) : EReal :=
  (rowDot (rowOf xb r) wt j + rowDot (rowOf hb r) wb j) + bias (ix2 (0 : Fin 1) j)

/-- The accumulator as the body spells it. -/
def accVec (v0 v2 : FVec Ideal S512x1024 .f32) (v4 v6 : FVec Ideal S1024x4096 .bf16) (v11 : FVec Ideal S1x4096 .f32) :
    FVec Ideal S512x4096 .f32 :=
  addf
    (addf
      (matmul dot_S512x1024_S1024x4096_S512x4096_1_0_0_1_n_n none (truncf .bf16 v0 bitsLt_bf16_f32)
        (shapeCast S1024x4096 v4 shapeCasts_S1024x4096_S1024x4096) (constant S512x4096 .f32 0x00000000#32))
      (matmul dot_S512x1024_S1024x4096_S512x4096_1_0_0_1_n_n none (truncf .bf16 v2 bitsLt_bf16_f32)
        (shapeCast S1024x4096 v6 shapeCasts_S1024x4096_S1024x4096) (constant S512x4096 .f32 0x00000000#32)))
    (broadcastTo S512x4096 (shapeCast S1x4096 v11 shapeCasts_S1x4096_S1x4096) broadcasts_S1x4096_S512x4096)

/-- A block of rows times half of the packed weights, into zero: row r of the block times the half, at column j. -/
theorem product_at (v : FVec Ideal S512x1024 .f32) (w : FVec Ideal S1024x4096 .bf16) (r : Fin 512) (j : Fin 4096) :
    matmul dot_S512x1024_S1024x4096_S512x4096_1_0_0_1_n_n none (truncf .bf16 v bitsLt_bf16_f32)
        (shapeCast S1024x4096 w shapeCasts_S1024x4096_S1024x4096) (constant (F := Ideal) S512x4096 .f32 0x00000000#32) (ix2 r j)
      = rowDot (rowOf v r) w j := by
  rw [shapeCast_self]
  exact matmul_plain_zero_apply (M := 512) (K := 1024) (N := 4096) none (truncf .bf16 v bitsLt_bf16_f32) w (ix2 r j)

/-- The bias row spread over the 512 rows, at an entry. -/
theorem bias_at (b : FVec Ideal S1x4096 .f32) (r : Fin 512) (j : Fin 4096) :
    broadcastTo S512x4096 (shapeCast S1x4096 b shapeCasts_S1x4096_S1x4096) broadcasts_S1x4096_S512x4096 (ix2 r j)
      = b (ix2 (0 : Fin 1) j) := by
  rw [shapeCast_self]
  exact broadcastTo_apply b broadcasts_S1x4096_S512x4096 (ix2 r j) (ix2 (0 : Fin 1) j) (fun a => by
    match a with
    | ⟨0, _⟩ => show 0 = if (1 : Nat) = 1 then 0 else r.val; rw [if_pos rfl]
    | ⟨1, _⟩ => show j.val = if (4096 : Nat) = 1 then 0 else j.val; rw [if_neg (by decide)])

/-- The accumulator as spelt is the accumulator. -/
theorem accVec_at (v0 v2 : FVec Ideal S512x1024 .f32) (v4 v6 : FVec Ideal S1024x4096 .bf16) (v11 : FVec Ideal S1x4096 .f32)
    (r : Fin 512) (j : Fin 4096) : accVec v0 v2 v4 v6 v11 (ix2 r j) = acc v0 v2 v4 v6 v11 r j :=
  congrArg₂ (· + ·) (congrArg₂ (· + ·) (product_at v0 v4 r j) (product_at v2 v6 r j)) (bias_at v11 r j)

/-- The band of the accumulator at offset o, at an entry. -/
theorem band_at (A : FVec Ideal S512x4096 .f32) (o : Nat) (ho : o + 1024 ≤ 4096) (h : S512x4096.Slices ![0, o] S512x1024)
    (r : Fin 512) (n : Fin 1024) :
    extractStridedSlice S512x1024 ![0, o] A h (ix2 r n) = A (ix2 r (colAt o ho n)) :=
  extractStridedSlice_apply ![0, o] A h (ix2 r n) (ix2 r (colAt o ho n)) (fun a => by
    match a with
    | ⟨0, _⟩ => show r.val = 0 + r.val; omega
    | ⟨1, _⟩ => show o + n.val = o + n.val; rfl)

/-- The body's value, with its accumulator named. -/
theorem payload_eq (v0 v2 : FVec Ideal S512x1024 .f32) (v4 v6 : FVec Ideal S1024x4096 .bf16) (v11 : FVec Ideal S1x4096 .f32)
    (v23 : FVec Ideal S512x1024 .f32) :
    k0_pay1 (F := Ideal) v0 v2 v4 v6 v11 v23
      = mulf (tanh (addf
          (mulf v23 (logistic (extractStridedSlice S512x1024 ![0, 0] (accVec v0 v2 v4 v6 v11) slices_S512x4096_o0_0_S512x1024)))
          (mulf (logistic (extractStridedSlice S512x1024 ![0, 1024] (accVec v0 v2 v4 v6 v11) slices_S512x4096_o0_1024_S512x1024))
            (tanh (extractStridedSlice S512x1024 ![0, 2048] (accVec v0 v2 v4 v6 v11) slices_S512x4096_o0_2048_S512x1024)))))
        (logistic (extractStridedSlice S512x1024 ![0, 3072] (accVec v0 v2 v4 v6 v11) slices_S512x4096_o0_3072_S512x1024)) := rfl

/-- The body's value at row r and column n of the block. -/
theorem payload_at (v0 v2 : FVec Ideal S512x1024 .f32) (v4 v6 : FVec Ideal S1024x4096 .bf16) (v11 : FVec Ideal S1x4096 .f32)
    (v23 : FVec Ideal S512x1024 .f32) (r : Fin 512) (n : Fin 1024) :
    k0_pay1 (F := Ideal) v0 v2 v4 v6 v11 v23 (ix2 r n)
      = Ideal.tanh (v23 (ix2 r n) * Ideal.logistic (acc v0 v2 v4 v6 v11 r (colAt 0 (by decide) n))
            + Ideal.logistic (acc v0 v2 v4 v6 v11 r (colAt 1024 (by decide) n)) * Ideal.tanh (acc v0 v2 v4 v6 v11 r (colAt 2048 (by decide) n)))
          * Ideal.logistic (acc v0 v2 v4 v6 v11 r (colAt 3072 (by decide) n)) := by
  have e0 := (band_at (accVec v0 v2 v4 v6 v11) 0 (by decide) slices_S512x4096_o0_0_S512x1024 r n).trans (accVec_at v0 v2 v4 v6 v11 r _)
  have e1 := (band_at (accVec v0 v2 v4 v6 v11) 1024 (by decide) slices_S512x4096_o0_1024_S512x1024 r n).trans (accVec_at v0 v2 v4 v6 v11 r _)
  have e2 := (band_at (accVec v0 v2 v4 v6 v11) 2048 (by decide) slices_S512x4096_o0_2048_S512x1024 r n).trans (accVec_at v0 v2 v4 v6 v11 r _)
  have e3 := (band_at (accVec v0 v2 v4 v6 v11) 3072 (by decide) slices_S512x4096_o0_3072_S512x1024 r n).trans (accVec_at v0 v2 v4 v6 v11 r _)
  rw [payload_eq]
  show Ideal.tanh (v23 (ix2 r n) * Ideal.logistic (extractStridedSlice S512x1024 ![0, 0] (accVec v0 v2 v4 v6 v11) slices_S512x4096_o0_0_S512x1024 (ix2 r n))
      + Ideal.logistic (extractStridedSlice S512x1024 ![0, 1024] (accVec v0 v2 v4 v6 v11) slices_S512x4096_o0_1024_S512x1024 (ix2 r n))
        * Ideal.tanh (extractStridedSlice S512x1024 ![0, 2048] (accVec v0 v2 v4 v6 v11) slices_S512x4096_o0_2048_S512x1024 (ix2 r n)))
    * Ideal.logistic (extractStridedSlice S512x1024 ![0, 3072] (accVec v0 v2 v4 v6 v11) slices_S512x4096_o0_3072_S512x1024 (ix2 r n)) = _
  rw [e0, e1, e2, e3]

end Cert.KernelIdeal.Body

end
-- ==== Proof.LstmCell.lean ====
/-
  One step of a long short-term memory cell, one entry at a time, over the extended reals.

  The data: x, h and c are 4096 x 1024 arrays (a batch of 4096 rows); each of the four gates has a
  2048 x 1024 weight matrix and a 1 x 1024 bias row. A gate's value before its nonlinearity, at row p
  and column n, is the row (x_p , h_p) of length 2048 times column n of the gate's matrix, plus the
  bias at n:

      gate(p, n) = sum_{k<1024} x(p,k) w(k,n) + sum_{k<1024} h(p,k) w(1024+k,n) + b(0,n).

  With s(a) = 1 / (1 + e^{-a}) the logistic function, the new hidden state is

      out(p, n) = tanh( c(p,n) s(gate_f) + s(gate_i) tanh(gate_c) ) s(gate_o).

  Two facts join the two programs to this function. A sum over 2048 consecutive positions is the sum over
  the first 1024 plus the sum over the last 1024; addition of extended reals is commutative and
  associative, so this holds whatever the terms are, infinite ones included. And the quotient
  1 / (1 + e^{-a}), with 1 the float pattern of one, is the logistic function by its definition.
-/
import Idealize.ShloMosaic.Lib.ValueIdx
import Idealize.ShloMosaic.PureOps.Ideal
import Idealize.ShloMosaic.PureOps.Ideal.Laws

noncomputable section

open scoped BigOperators

namespace Cert.LstmCell

open Idealize.ShloMosaic Idealize.ShloMosaic.ValueIdx

/-- x, h, c and the result. -/
abbrev SX : Shape := ⟨2, ![4096, 1024]⟩
/-- One gate's weights. -/
abbrev SW : Shape := ⟨2, ![2048, 1024]⟩
/-- One gate's bias row. -/
abbrev SB : Shape := ⟨2, ![1, 1024]⟩

/-- Row k of a gate's weights: the row that meets x(.,k). -/
abbrev lo (k : Fin 1024) : Fin 2048 := ⟨k.val, by omega⟩
/-- Row 1024 + k of a gate's weights: the row that meets h(.,k). -/
abbrev hi (k : Fin 1024) : Fin 2048 := ⟨1024 + k.val, by omega⟩

/-- A gate before its nonlinearity, at row p and column n. -/
def gate (x h : SX.Idx → EReal) (w : SW.Idx → EReal) (b : SB.Idx → EReal) (p : Fin 4096) (n : Fin 1024) : EReal :=
  (∑ k : Fin 1024, x (ix2 p k) * w (ix2 (lo k) n) + ∑ k : Fin 1024, h (ix2 p k) * w (ix2 (hi k) n)) + b (ix2 (0 : Fin 1) n)

/-- The new hidden state at row p and column n. -/
def cellAt (x h c : SX.Idx → EReal) (wf wi wc wo : SW.Idx → EReal) (bf bi bc bo : SB.Idx → EReal)
    (p : Fin 4096) (n : Fin 1024) : EReal :=
  Ideal.tanh (c (ix2 p n) * Ideal.logistic (gate x h wf bf p n) + Ideal.logistic (gate x h wi bi p n) * Ideal.tanh (gate x h wc bc p n))
    * Ideal.logistic (gate x h wo bo p n)

/-- The new hidden state, as an array. -/
def cell (x h c : SX.Idx → EReal) (wf wi wc wo : SW.Idx → EReal) (bf bi bc bo : SB.Idx → EReal) : SX.Idx → EReal :=
  fun i => cellAt x h c wf wi wc wo bf bi bc bo (i 0) (i 1)

/-- A sum over 2048 positions is the sum over the first 1024 plus the sum over the last 1024. -/
theorem sum_halves (f : Fin 2048 → EReal) : ∑ k : Fin 2048, f k = ∑ k : Fin 1024, f (lo k) + ∑ k : Fin 1024, f (hi k) := by
  have e := Fin.sum_univ_add (a := 1024) (b := 1024) f
  refine e.trans ?_
  refine congrArg₂ (· + ·) (Finset.sum_congr rfl fun k _ => congrArg f (Fin.ext rfl)) (Finset.sum_congr rfl fun k _ => congrArg f (Fin.ext rfl))

/-- The float pattern 0x3F800000 is the number one. -/
theorem one_f32 : Ideal.ofBits .f32 0x3F800000#32 = 1 := by
  simp [Ideal.ofBits, Ideal.ieee, -EReal.coe_mul]
  norm_num

/-- The logistic function spelt as a quotient of the pattern of one. -/
theorem logistic_spelt (a : EReal) :
    Ideal.div (Ideal.ofBits .f32 0x3F800000#32) (Ideal.ofBits .f32 0x3F800000#32 + Ideal.exp (-a)) = Ideal.logistic a := by
  rw [one_f32]; rfl

end Cert.LstmCell

end
-- ==== Proof.LibFourBands.lean ====
/-
  Four arrays of R rows and W columns laid side by side into one array of R rows, read at an entry.

  Column j of the joined array lies in band g when g W <= j < (g + 1) W, and there the joined array is
  the g-th operand at column j - g W, in the same row. Stated for the concatenation along axis 1 of
  four operands of one shape, for every R, W and total width T that the concatenation's shape fact
  admits, one statement per band.
-/
import Idealize.ShloMosaic.Lib.Pipeline.Value
import Idealize.ShloMosaic.Lib.ValueIdx

noncomputable section

namespace Cert.FourBands

open Idealize.ShloMosaic Idealize.ShloMosaic.ValueIdx

variable {α : Type} {R W T : Nat}

/-- The four operands, in order. -/
abbrev pieces (a0 a1 a2 a3 : (⟨2, ![R, W]⟩ : Shape).Idx → α) : List ((s : Shape) × (s.Idx → α)) :=
  [⟨⟨2, ![R, W]⟩, a0⟩, ⟨⟨2, ![R, W]⟩, a1⟩, ⟨⟨2, ![R, W]⟩, a2⟩, ⟨⟨2, ![R, W]⟩, a3⟩]

/-- The joined array of four operands of R rows and W columns. -/
abbrev joined (a0 a1 a2 a3 : (⟨2, ![R, W]⟩ : Shape).Idx → α)
    (h : Shape.Concatenates [(⟨2, ![R, W]⟩ : Shape), ⟨2, ![R, W]⟩, ⟨2, ![R, W]⟩, ⟨2, ![R, W]⟩] ⟨2, ![R, T]⟩ 1) :
    (⟨2, ![R, T]⟩ : Shape).Idx → α :=
  concatenate ⟨2, ![R, T]⟩ 1 (pieces a0 a1 a2 a3) h

/-- An entry of the piece and an entry of the joined array in the same row have the same row coordinate. -/
private theorem same_row (k : Fin R) (n : Fin W) (j : Fin T) :
    ∀ b : Fin (⟨2, ![R, W]⟩ : Shape).rank, b.cast (rfl : (⟨2, ![R, W]⟩ : Shape).rank = (⟨2, ![R, T]⟩ : Shape).rank) ≠ 1 →
      ((ix2 k n : (⟨2, ![R, W]⟩ : Shape).Idx) b).val = ((ix2 k j : (⟨2, ![R, T]⟩ : Shape).Idx) (b.cast rfl)).val := fun b hb => by
  match b with
  | ⟨0, _⟩ => rfl
  | ⟨1, _⟩ => exact absurd rfl hb

/-- In the first band the joined array is the first operand. -/
theorem band0 (a0 a1 a2 a3 : (⟨2, ![R, W]⟩ : Shape).Idx → α) (h) (k : Fin R) (n : Fin W) (j : Fin T) (hj : j.val = n.val) :
    joined a0 a1 a2 a3 h (ix2 k j) = a0 (ix2 k n) :=
  concatenate_apply_piece (t := ⟨2, ![R, T]⟩) 1 (pieces a0 a1 a2 a3) h (ix2 k j) 0 (Nat.succ_pos 3) ⟨2, ![R, W]⟩ a0 rfl rfl 0 rfl (ix2 k n)
    (same_row k n j) (by show 0 + n.val = j.val; omega)

/-- In the second band it is the second operand, W columns back. -/
theorem band1 (a0 a1 a2 a3 : (⟨2, ![R, W]⟩ : Shape).Idx → α) (h) (k : Fin R) (n : Fin W) (j : Fin T) (hj : j.val = W + n.val) :
    joined a0 a1 a2 a3 h (ix2 k j) = a1 (ix2 k n) :=
  concatenate_apply_piece (t := ⟨2, ![R, T]⟩) 1 (pieces a0 a1 a2 a3) h (ix2 k j) 1 (by show 1 < 4; omega) ⟨2, ![R, W]⟩ a1 rfl rfl (W + 0) rfl (ix2 k n)
    (same_row k n j) (by show W + 0 + n.val = j.val; omega)

/-- In the third band it is the third operand, 2 W columns back. -/
theorem band2 (a0 a1 a2 a3 : (⟨2, ![R, W]⟩ : Shape).Idx → α) (h) (k : Fin R) (n : Fin W) (j : Fin T) (hj : j.val = 2 * W + n.val) :
    joined a0 a1 a2 a3 h (ix2 k j) = a2 (ix2 k n) :=
  concatenate_apply_piece (t := ⟨2, ![R, T]⟩) 1 (pieces a0 a1 a2 a3) h (ix2 k j) 2 (by show 2 < 4; omega) ⟨2, ![R, W]⟩ a2 rfl rfl (W + (W + 0)) rfl (ix2 k n)
    (same_row k n j) (by show W + (W + 0) + n.val = j.val; omega)

/-- In the fourth band it is the fourth operand, 3 W columns back. -/
theorem band3 (a0 a1 a2 a3 : (⟨2, ![R, W]⟩ : Shape).Idx → α) (h) (k : Fin R) (n : Fin W) (j : Fin T) (hj : j.val = 3 * W + n.val) :
    joined a0 a1 a2 a3 h (ix2 k j) = a3 (ix2 k n) :=
  concatenate_apply_piece (t := ⟨2, ![R, T]⟩) 1 (pieces a0 a1 a2 a3) h (ix2 k j) 3 (by show 3 < 4; omega) ⟨2, ![R, W]⟩ a3 rfl rfl (W + (W + (W + 0))) rfl (ix2 k n)
    (same_row k n j) (by show W + (W + (W + 0)) + n.val = j.val; omega)

end Cert.FourBands

end
-- ==== Proof.KernelValue.lean ====
/-
  The result array of the kernel program, at the exact values, is the cell function of the launch
  contents of the eleven arguments.

  Three steps.
  * A point of the grid. Point t holds rows 512 t .. 512 t + 511 of x, h and c and the whole packed
    weight array and bias row, and writes back rows 512 t .. 512 t + 511 of the result. Entry (r, n) of
    what it writes back is the body's value at (r, n): the cell's formula with the accumulator
    acc(r, o + n) at the four offsets o = 0, 1024, 2048, 3072. Row r of the x block is row 512 t + r
    of x, the upper half of the packed weights is their rows k < 1024 and the lower half their rows
    1024 + k, so acc(r, o + n) is the gate's two half sums over the packed column o + n, plus the packed
    bias at o + n.
  * The packed arrays. The host lays the four weight matrices side by side (and narrows the result,
    the identity on exact values), and the four bias rows side by side: packed column 1024 g + n is
    column n of gate g's matrix, and of gate g's bias row. So acc(r, 1024 g + n) is gate g at row
    512 t + r and column n, and what point t writes back is the block of the cell function.
  * The whole array. Every row p lies in the block of exactly the point p / 512, and every point
    writes its block back, so the array ends as the cell function.
-/
import proofs.«125786_j61220463837880_2_alg».proof.Proof.KernelIdealFrame
import proofs.«125786_j61220463837880_2_alg».proof.Proof.KernelBody
import proofs.«125786_j61220463837880_2_alg».proof.Proof.LstmCell
import proofs.«125786_j61220463837880_2_alg».proof.Proof.LibFourBands
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Cert.KernelIdeal.Hand Cert.KernelIdeal.Body Cert.LstmCell Cert.RowDot Cert.FourBands
open Idealize.ShloMosaic Idealize.ShloMosaic.TcCoe Idealize.ShloMosaic.ValueIdx Idealize.ShloMosaic.StableHlo Idealize.SL.Sem
open Idealize.ShloMosaic.Pipeline (Dat)

/-! ## A point's accumulator is the gate -/

/-- The upper half of the packed weights, read through its rectangle: rows k < 1024. -/
theorem top_at (wb : Vec Ideal S2048x4096 .bf16) (k : Fin 1024) (j : Fin 4096) :
    View.ld wb rTop (ix2 k j) = wb (ix2 (lo k) j) :=
  congrArg wb (funext fun a => Fin.ext (by
    match a with
    | ⟨0, _⟩ => show 0 + 1 * k.val = k.val; omega
    | ⟨1, _⟩ => show 0 + 1 * j.val = j.val; omega))

/-- The lower half: rows 1024 + k. -/
theorem bot_at (wb : Vec Ideal S2048x4096 .bf16) (k : Fin 1024) (j : Fin 4096) :
    View.ld wb rBot (ix2 k j) = wb (ix2 (hi k) j) :=
  congrArg wb (funext fun a => Fin.ext (by
    match a with
    | ⟨0, _⟩ => show 1024 + 1 * k.val = 1024 + k.val; omega
    | ⟨1, _⟩ => show 0 + 1 * j.val = j.val; omega))

/-- The accumulator at row r and packed column j, when row r of the blocks is row P of x and h and packed
    column j holds column n of a gate's weights and bias: the gate at (P, n). -/
theorem acc_is_gate (x h : SX.Idx → EReal) (w : SW.Idx → EReal) (b : SB.Idx → EReal)
    (xb hb : Vec Ideal S512x1024 .f32) (wb : Vec Ideal S2048x4096 .bf16) (bb : Vec Ideal S1x4096 .f32)
    (P : Fin 4096) (r : Fin 512) (n : Fin 1024) (j : Fin 4096)
    (hx : ∀ k : Fin 1024, xb (ix2 r k) = x (ix2 P k)) (hh : ∀ k : Fin 1024, hb (ix2 r k) = h (ix2 P k))
    (hw : ∀ k : Fin 2048, wb (ix2 k j) = w (ix2 k n)) (hbias : bb (ix2 (0 : Fin 1) j) = b (ix2 (0 : Fin 1) n)) :
    acc xb hb (View.ld wb rTop) (View.ld wb rBot) bb r j = gate x h w b P n := by
  unfold acc gate rowDot rowOf
  refine congrArg₂ (· + ·) (congrArg₂ (· + ·) (Finset.sum_congr rfl fun k _ => ?_) (Finset.sum_congr rfl fun k _ => ?_)) hbias
  · exact congrArg₂ (· * ·) (hx k) ((top_at wb k j).trans (hw (lo k)))
  · exact congrArg₂ (· * ·) (hh k) ((bot_at wb k j).trans (hw (hi k)))

/-- The body's value at row r and column n of its block is the cell function at row P and column n, when row r
    of the blocks is row P of the arrays and the packed columns hold the four gates' columns. -/
theorem block_entry (x h c : SX.Idx → EReal) (wf wi wc wo : SW.Idx → EReal) (bf bi bc bo : SB.Idx → EReal)
    (xb hb cb : Vec Ideal S512x1024 .f32) (wb : Vec Ideal S2048x4096 .bf16) (bb : Vec Ideal S1x4096 .f32)
    (P : Fin 4096) (r : Fin 512) (n : Fin 1024)
    (hx : ∀ k : Fin 1024, xb (ix2 r k) = x (ix2 P k)) (hh : ∀ k : Fin 1024, hb (ix2 r k) = h (ix2 P k))
    (hc : cb (ix2 r n) = c (ix2 P n))
    (hwf : ∀ k : Fin 2048, wb (ix2 k (colAt 0 (by decide) n)) = wf (ix2 k n))
    (hwi : ∀ k : Fin 2048, wb (ix2 k (colAt 1024 (by decide) n)) = wi (ix2 k n))
    (hwc : ∀ k : Fin 2048, wb (ix2 k (colAt 2048 (by decide) n)) = wc (ix2 k n))
    (hwo : ∀ k : Fin 2048, wb (ix2 k (colAt 3072 (by decide) n)) = wo (ix2 k n))
    (hbf : bb (ix2 (0 : Fin 1) (colAt 0 (by decide) n)) = bf (ix2 (0 : Fin 1) n))
    (hbi : bb (ix2 (0 : Fin 1) (colAt 1024 (by decide) n)) = bi (ix2 (0 : Fin 1) n))
    (hbc : bb (ix2 (0 : Fin 1) (colAt 2048 (by decide) n)) = bc (ix2 (0 : Fin 1) n))
    (hbo : bb (ix2 (0 : Fin 1) (colAt 3072 (by decide) n)) = bo (ix2 (0 : Fin 1) n)) :
    k0_pay1 (F := Ideal) xb hb (View.ld wb rTop) (View.ld wb rBot) bb cb (ix2 r n)
      = cellAt x h c wf wi wc wo bf bi bc bo P n := by
  rw [payload_at]
  unfold cellAt
  rw [hc, acc_is_gate x h wf bf xb hb wb bb P r n _ hx hh hwf hbf, acc_is_gate x h wi bi xb hb wb bb P r n _ hx hh hwi hbi,
    acc_is_gate x h wc bc xb hb wb bb P r n _ hx hh hwc hbc, acc_is_gate x h wo bo xb hb wb bb P r n _ hx hh hwo hbo]

variable (m : (ℓ : Loc nD τ sig) → Buf (Elt Ideal) ℓ) (ρ : Dev nD → PrngReg)

/-! ## The packed arrays -/

/-- The narrowed packed weights, when the launch is reached: the four weight matrices side by side. -/
theorem packedW (c : Dev nD) :
    (V m c main_v1 : S2048x4096.Idx → EReal)
      = joined (α := EReal) (R := 2048) (W := 1024) (T := 4096)
          (m ((c : Thread nD τ).loc main_arg3)) (m ((c : Thread nD τ).loc main_arg5))
          (m ((c : Thread nD τ).loc main_arg7)) (m ((c : Thread nD τ).loc main_arg9))
          concatenates_S2048x1024_S2048x1024_S2048x1024_S2048x1024_S2048x4096_d1 := by
  dsimp only [V, hostOps0]; after_results; rfl

/-- The packed bias row: the four bias rows side by side. -/
theorem packedB (c : Dev nD) :
    (V m c main_v2 : S1x4096.Idx → EReal)
      = joined (α := EReal) (R := 1) (W := 1024) (T := 4096)
          (m ((c : Thread nD τ).loc main_arg4)) (m ((c : Thread nD τ).loc main_arg6))
          (m ((c : Thread nD τ).loc main_arg8)) (m ((c : Thread nD τ).loc main_arg10))
          concatenates_S1x1024_S1x1024_S1x1024_S1x1024_S1x4096_d1 := by
  dsimp only [V, hostOps0]; after_results; rfl

/-! ## The blocks, read off the arrays -/

/-- The printed index maps over the grid: x, h, c and the result move one block of rows per point, the
    packed weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 8 := by
  have h := t.isLt; have hN : cfg0.N = 8 := N_0; omega

/-- Row r of point t's block of x is row 512 t + r of x. -/
theorem x_block (c : Dev nD) (t : Fin cfg0.N) (P : Fin 4096) (r : Fin 512) (hP : P.val = 512 * t.val + r.val) (k : Fin 1024) :
    iblk m c 0 t (ix2 r k) = V m c main_arg0 (ix2 P k) := by
  obtain ⟨e0, e1, -⟩ := idx_facts t
  show V m c main_arg0 (((cfg0.win 0).blk t).view.emb (ix2 r k)) = V m c main_arg0 (ix2 P k)
  refine congrArg (V m c main_arg0) (funext fun a => Fin.ext ?_)
  match a with
  | ⟨0, _⟩ => show win0_0.index t (0 : Fin 2) * 512 + 1 * r.val = P.val; omega
  | ⟨1, _⟩ => show win0_0.index t (1 : Fin 2) * 1024 + 1 * k.val = k.val; omega

theorem h_block (c : Dev nD) (t : Fin cfg0.N) (P : Fin 4096) (r : Fin 512) (hP : P.val = 512 * t.val + r.val) (k : Fin 1024) :
    iblk m c 1 t (ix2 r k) = V m c main_arg1 (ix2 P k) := by
  obtain ⟨-, -, e0, e1, -⟩ := idx_facts t
  show V m c main_arg1 (((cfg0.win 1).blk t).view.emb (ix2 r k)) = V m c main_arg1 (ix2 P k)
  refine congrArg (V m c main_arg1) (funext fun a => Fin.ext ?_)
  match a with
  | ⟨0, _⟩ => show win0_1.index t (0 : Fin 2) * 512 + 1 * r.val = P.val; omega
  | ⟨1, _⟩ => show win0_1.index t (1 : Fin 2) * 1024 + 1 * k.val = k.val; omega

theorem c_block (c : Dev nD) (t : Fin cfg0.N) (P : Fin 4096) (r : Fin 512) (hP : P.val = 512 * t.val + r.val) (k : Fin 1024) :
    iblk m c 2 t (ix2 r k) = V m c main_arg2 (ix2 P k) := by
  obtain ⟨-, -, -, -, e0, e1, -⟩ := idx_facts t
  show V m c main_arg2 (((cfg0.win 2).blk t).view.emb (ix2 r k)) = V m c main_arg2 (ix2 P k)
  refine congrArg (V m c main_arg2) (funext fun a => Fin.ext ?_)
  match a with
  | ⟨0, _⟩ => show win0_2.index t (0 : Fin 2) * 512 + 1 * r.val = P.val; omega
  | ⟨1, _⟩ => show win0_2.index t (1 : Fin 2) * 1024 + 1 * k.val = k.val; omega

/-- Every point's block of the packed weights is the whole array. -/
theorem w_block (c : Dev nD) (t : Fin cfg0.N) (k : Fin 2048) (j : Fin 4096) :
    iblk m c 3 t (ix2 k j) = V m c main_v1 (ix2 k j) := by
  obtain ⟨-, -, -, -, -, -, e0, e1, -⟩ := idx_facts t
  show V m c main_v1 (((cfg0.win 3).blk t).view.emb (ix2 k j)) = V m c main_v1 (ix2 k j)
  refine congrArg (V m c main_v1) (funext fun a => Fin.ext ?_)
  match a with
  | ⟨0, _⟩ => show win0_3.index t (0 : Fin 2) * 2048 + 1 * k.val = k.val; omega
  | ⟨1, _⟩ => show win0_3.index t (1 : Fin 2) * 4096 + 1 * j.val = j.val; omega

/-- And of the packed bias row. -/
theorem b_block (c : Dev nD) (t : Fin cfg0.N) (j : Fin 4096) :
    iblk m c 4 t (ix2 (0 : Fin 1) j) = V m c main_v2 (ix2 (0 : Fin 1) j) := by
  obtain ⟨-, -, -, -, -, -, -, -, e0, e1, -⟩ := idx_facts t
  show V m c main_v2 (((cfg0.win 4).blk t).view.emb (ix2 (0 : Fin 1) j)) = V m c main_v2 (ix2 (0 : Fin 1) j)
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 4096 + 1 * j.val = j.val; omega

/-! ## What a point writes back -/

/-- The cell function of the launch contents of the eleven arguments on core `c`. -/
abbrev result (c : Dev nD) : SX.Idx → EReal :=
  cell (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7)) (m ((c : Thread nD τ).loc main_arg9))
    (m ((c : Thread nD τ).loc main_arg4)) (m ((c : Thread nD τ).loc main_arg6)) (m ((c : Thread nD τ).loc main_arg8)) (m ((c : Thread nD τ).loc main_arg10))

theorem hz : (![0, 0] : Fin 2 → Nat) = fun _ => 0 := funext fun a => by fin_cases a <;> rfl

/-- The body's value over point t's blocks, at row r and column n, is the cell function at row 512 t + r. -/
theorem point_entry (c : Dev nD) (t : Fin cfg0.N) (P : Fin 4096) (r : Fin 512) (hP : P.val = 512 * t.val + r.val) (n : Fin 1024) :
    k0_pay1 (F := Ideal) (iblk m c 0 t) (iblk m c 1 t) (View.ld (iblk m c 3 t) rTop) (View.ld (iblk m c 3 t) rBot) (iblk m c 4 t) (iblk m c 2 t) (ix2 r n)
      = cellAt (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg7)) (m ((c : Thread nD τ).loc main_arg9))
          (m ((c : Thread nD τ).loc main_arg4)) (m ((c : Thread nD τ).loc main_arg6)) (m ((c : Thread nD τ).loc main_arg8)) (m ((c : Thread nD τ).loc main_arg10)) P n := by
  have hW : ∀ (k : Fin 2048) (j : Fin 4096), iblk m c 3 t (ix2 k j) = joined (α := EReal) (R := 2048) (W := 1024) (T := 4096)
      (m ((c : Thread nD τ).loc main_arg3)) (m ((c : Thread nD τ).loc main_arg5)) (m ((c : Thread nD τ).loc main_arg7)) (m ((c : Thread nD τ).loc main_arg9))
      concatenates_S2048x1024_S2048x1024_S2048x1024_S2048x1024_S2048x4096_d1 (ix2 k j) := fun k j =>
    (w_block m c t k j).trans (congrFun (packedW m c) (ix2 k j))
  have hB : ∀ j : Fin 4096, iblk m c 4 t (ix2 (0 : Fin 1) j) = joined (α := EReal) (R := 1) (W := 1024) (T := 4096)
      (m ((c : Thread nD τ).loc main_arg4)) (m ((c : Thread nD τ).loc main_arg6)) (m ((c : Thread nD τ).loc main_arg8)) (m ((c : Thread nD τ).loc main_arg10))
      concatenates_S1x1024_S1x1024_S1x1024_S1x1024_S1x4096_d1 (ix2 (0 : Fin 1) j) := fun j =>
    (b_block m c t j).trans (congrFun (packedB m c) (ix2 (0 : Fin 1) j))
  refine block_entry _ _ _ _ _ _ _ _ _ _ _ (iblk m c 0 t) (iblk m c 1 t) (iblk m c 2 t) (iblk m c 3 t) (iblk m c 4 t) P r n
    (fun k => (x_block m c t P r hP k).trans (congrFun (V_main_arg0 m c) _))
    (fun k => (h_block m c t P r hP k).trans (congrFun (V_main_arg1 m c) _))
    ((c_block m c t P r hP n).trans (congrFun (V_main_arg2 m c) _))
    (fun k => (hW k _).trans (band0 _ _ _ _ _ k n _ (by show 0 + n.val = n.val; omega)))
    (fun k => (hW k _).trans (band1 _ _ _ _ _ k n _ (by show 1024 + n.val = 1024 + n.val; rfl)))
    (fun k => (hW k _).trans (band2 _ _ _ _ _ k n _ (by show 2048 + n.val = 2 * 1024 + n.val; omega)))
    (fun k => (hW k _).trans (band3 _ _ _ _ _ k n _ (by show 3072 + n.val = 3 * 1024 + n.val; omega)))
    ((hB _).trans (band0 _ _ _ _ _ (0 : Fin 1) n _ (by show 0 + n.val = n.val; omega)))
    ((hB _).trans (band1 _ _ _ _ _ (0 : Fin 1) n _ (by show 1024 + n.val = 1024 + n.val; rfl)))
    ((hB _).trans (band2 _ _ _ _ _ (0 : Fin 1) n _ (by show 2048 + n.val = 2 * 1024 + n.val; omega)))
    ((hB _).trans (band3 _ _ _ _ _ (0 : Fin 1) n _ (by show 3072 + n.val = 3 * 1024 + n.val; omega)))

/-- What point t writes back is block t of the cell function. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after_out]
  unfold outBlk
  rw [View.canon_unit_zero hz]
  simp only [View.ld_unit_zero (S := S512x1024) hz, View.ld_unit_zero (S := S1x4096) hz]
  have ht := point_lt t
  obtain ⟨-, -, -, -, -, -, -, -, -, -, e0, e1⟩ := idx_facts t
  funext j
  obtain ⟨r, n, rfl⟩ : ∃ (r : Fin 512) (n : Fin 1024), j = ix2 r n := ⟨j 0, j 1, eq_ix2 j⟩
  have hr := r.isLt
  have hemb : ((cfg0.win 5).blk t).view.emb (ix2 r n) = ix2 (⟨512 * t.val + r.val, by omega⟩ : Fin 4096) n :=
    funext fun a => Fin.ext (by
      match a with
      | ⟨0, _⟩ => show win0_5.index t (0 : Fin 2) * 512 + 1 * r.val = 512 * t.val + r.val; omega
      | ⟨1, _⟩ => show win0_5.index t (1 : Fin 2) * 1024 + 1 * n.val = n.val; omega)
  show k0_pay1 (F := Ideal) (iblk m c 0 t) (iblk m c 1 t) (View.ld (iblk m c 3 t) rTop) (View.ld (iblk m c 3 t) rBot) (iblk m c 4 t) (iblk m c 2 t) (ix2 r n)
    = result m c (((cfg0.win 5).blk t).view.emb (ix2 r n))
  rw [hemb]
  exact point_entry m c t ⟨512 * t.val + r.val, by omega⟩ r rfl n

/-! ## The whole array -/

/-- An index of the result array is in point t's block iff each coordinate is in the block's range. -/
theorem mem_blk (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3).slice (win0_5.rect t)).set ↔ _
  rw [View.set_slice_whole, Rect.mem_set_unit]
  exact Iff.rfl

/-- Every index lies in the block of the point its row, divided by 512, names; that point writes back. -/
theorem covered (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  let t : Fin cfg0.N := ⟨(i 0).val / 512, by have hN : cfg0.N = 8 := N_0; omega⟩
  obtain ⟨-, -, -, -, -, -, -, -, -, -, e0, e1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The result array after the run is the cell function. -/
theorem final (c : Dev nD) : (dats m 0 c).arrAt 5 cfg0.N = result m c :=
  (dats m 0 c).arrAt_eq_of_cover 5 (result m c) (fun t _ => flushed_eq m c t) covered

/-- The kernel program's run: it ends, its result array at the cell function of the launch contents of the
    arguments, the arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final m c), kept m r h c⟩) (run_main m ρ)

end Cert.KernelIdeal.Whole

end
-- ==== Proof.RefCell.lean ====
/-
  The reference's result is the cell function.

  The reference joins x and h side by side into a 4096 x 2048 array z, multiplies z by each gate's
  2048 x 1024 matrix, adds the gate's bias row to every row, applies the nonlinearities and combines.
  Entry (p, n) of z times a matrix w is the sum over k < 2048 of z(p,k) w(k,n); for k < 1024 the entry
  z(p,k) is x(p,k), and for k = 1024 + k' it is h(p,k'), so the sum is the cell's two half sums. The
  reference spells the logistic function as 1 / (1 + e^{-a}). The four gates run the same operations
  on different weights, so what is read for the first gate is read for all.
-/
import proofs.«125786_j61220463837880_2_alg».proof.Proof.Gen.ReferenceIdeal.Read
import proofs.«125786_j61220463837880_2_alg».proof.Proof.LstmCell
import Idealize.ShloMosaic.Lib.Pipeline.Value

noncomputable section

open scoped BigOperators

namespace Cert.ReferenceIdeal.RefCell

open Cert.ReferenceIdeal Cert.ReferenceIdeal.Read Idealize.ShloMosaic Idealize.ShloMosaic.ValueIdx Cert.LstmCell

/-- In the first half of its columns the joined array is x. -/
theorem joined_lo (x0 x1 : (⟨S4096x1024, .f32⟩ : BufTy).Contents (Elt Ideal)) (i : S4096x1024.Idx) (k : Fin 1024) :
    val_main_v0 (F := Ideal) x0 x1 (lidx_main_v1 i (lo k)) = x0 (ix2 (i 0) k) := by
  unfold val_main_v0
  exact concatenate_pair_apply_left (t := S4096x2048) (s₁ := S4096x1024) (s₂ := S4096x1024) 1 x0 x1
    Gen.concatenates_S4096x1024_S4096x1024_S4096x2048_d1 (lidx_main_v1 i (lo k)) rfl (ix2 (i 0) k) (fun b => by
    match b with
    | ⟨0, _⟩ => rfl
    | ⟨1, _⟩ => rfl)

/-- In the second half of its columns the joined array is h, 1024 columns back. -/
theorem joined_hi (x0 x1 : (⟨S4096x1024, .f32⟩ : BufTy).Contents (Elt Ideal)) (i : S4096x1024.Idx) (k : Fin 1024) :
    val_main_v0 (F := Ideal) x0 x1 (lidx_main_v1 i (hi k)) = x1 (ix2 (i 0) k) := by
  unfold val_main_v0
  exact concatenate_pair_apply_right (t := S4096x2048) (s₁ := S4096x1024) (s₂ := S4096x1024) 1 x0 x1
    Gen.concatenates_S4096x1024_S4096x1024_S4096x2048_d1 (lidx_main_v1 i (hi k)) rfl rfl (ix2 (i 0) k) (fun b hb => by
    match b with
    | ⟨0, _⟩ => rfl
    | ⟨1, _⟩ => exact absurd rfl hb) (by show k.val + 1024 = 1024 + k.val; omega)

/-- The weight entry the k-th term of the product reads. -/
theorem weight_at (i : S4096x1024.Idx) (k : Fin 2048) : ridx_main_v1 i k = ix2 k (i 1) :=
  funext fun a => by
    match a with
    | ⟨0, _⟩ => rfl
    | ⟨1, _⟩ => rfl

/-- The joined array times a gate's matrix, at an entry: the cell's two half sums. -/
theorem product_read (x0 x1 : (⟨S4096x1024, .f32⟩ : BufTy).Contents (Elt Ideal)) (w : (⟨S2048x1024, .f32⟩ : BufTy).Contents (Elt Ideal)) (i : S4096x1024.Idx) :
    val_main_v1 (F := Ideal) x0 x1 w i
      = ∑ k : Fin 1024, x0 (ix2 (i 0) k) * w (ix2 (lo k) (i 1)) + ∑ k : Fin 1024, x1 (ix2 (i 0) k) * w (ix2 (hi k) (i 1)) := by
  rw [val_main_v1_apply, sum_halves]
  refine congrArg₂ (· + ·) (Finset.sum_congr rfl fun k _ => ?_) (Finset.sum_congr rfl fun k _ => ?_)
  · exact congrArg₂ (· * ·) (joined_lo x0 x1 i k) (congrArg w (weight_at i (lo k)))
  · exact congrArg₂ (· * ·) (joined_hi x0 x1 i k) (congrArg w (weight_at i (hi k)))

/-- The bias row spread over the rows, at an entry. -/
theorem bias_read (b : (⟨S1x1024, .f32⟩ : BufTy).Contents (Elt Ideal)) (i : S4096x1024.Idx) :
    val_main_v2 (F := Ideal) b i = b (ix2 (0 : Fin 1) (i 1)) := by
  rw [val_main_v2_apply]
  refine congrArg b (funext fun a => ?_)
  match a with
  | ⟨0, _⟩ => rfl
  | ⟨1, _⟩ => rfl

/-- A gate before its nonlinearity. -/
theorem gate_read (x0 x1 : (⟨S4096x1024, .f32⟩ : BufTy).Contents (Elt Ideal)) (w : (⟨S2048x1024, .f32⟩ : BufTy).Contents (Elt Ideal))
    (b : (⟨S1x1024, .f32⟩ : BufTy).Contents (Elt Ideal)) (i : S4096x1024.Idx) :
    val_main_v3 (F := Ideal) x0 x1 w b i = gate x0 x1 w b (i 0) (i 1) := by
  rw [val_main_v3_apply, product_read, bias_read]
  rfl

/-- The constant one spread over the array. -/
theorem ones_read (i : S4096x1024.Idx) : val_main_v6 (F := Ideal) i = Ideal.ofBits .f32 0x3F800000#32 := by
  rw [val_main_v6_apply]; rfl

/-- A logistic gate. -/
theorem logistic_read (x0 x1 : (⟨S4096x1024, .f32⟩ : BufTy).Contents (Elt Ideal)) (w : (⟨S2048x1024, .f32⟩ : BufTy).Contents (Elt Ideal))
    (b : (⟨S1x1024, .f32⟩ : BufTy).Contents (Elt Ideal)) (i : S4096x1024.Idx) :
    val_main_v9 (F := Ideal) x0 x1 w b i = Ideal.logistic (gate x0 x1 w b (i 0) (i 1)) := by
  rw [val_main_v9_apply, val_main_v7_apply, val_main_v5_apply, val_main_v4_apply, gate_read]
  rw [show val_main_v8 (F := Ideal) i = Ideal.ofBits .f32 0x3F800000#32 from ones_read i, ones_read]
  exact logistic_spelt _

/-- The tanh gate. -/
theorem tanh_read (x0 x1 : (⟨S4096x1024, .f32⟩ : BufTy).Contents (Elt Ideal)) (w : (⟨S2048x1024, .f32⟩ : BufTy).Contents (Elt Ideal))
    (b : (⟨S1x1024, .f32⟩ : BufTy).Contents (Elt Ideal)) (i : S4096x1024.Idx) :
    val_main_v22 (F := Ideal) x0 x1 w b i = Ideal.tanh (gate x0 x1 w b (i 0) (i 1)) := by
  rw [val_main_v22_apply]
  rw [show val_main_v21 (F := Ideal) x0 x1 w b i = val_main_v3 (F := Ideal) x0 x1 w b i from rfl, gate_read]
  rfl

/-- The reference's result is the cell function of its eleven arguments. -/
theorem result_is_cell (x0 x1 x2 : (⟨S4096x1024, .f32⟩ : BufTy).Contents (Elt Ideal))
    (x3 : (⟨S2048x1024, .f32⟩ : BufTy).Contents (Elt Ideal)) (x4 : (⟨S1x1024, .f32⟩ : BufTy).Contents (Elt Ideal))
    (x5 : (⟨S2048x1024, .f32⟩ : BufTy).Contents (Elt Ideal)) (x6 : (⟨S1x1024, .f32⟩ : BufTy).Contents (Elt Ideal))
    (x7 : (⟨S2048x1024, .f32⟩ : BufTy).Contents (Elt Ideal)) (x8 : (⟨S1x1024, .f32⟩ : BufTy).Contents (Elt Ideal))
    (x9 : (⟨S2048x1024, .f32⟩ : BufTy).Contents (Elt Ideal)) (x10 : (⟨S1x1024, .f32⟩ : BufTy).Contents (Elt Ideal)) :
    val_main_v36 (F := Ideal) x0 x1 x2 x3 x4 x5 x6 x7 x8 x9 x10 = cell x0 x1 x2 x3 x5 x7 x9 x4 x6 x8 x10 := by
  funext i
  rw [val_main_v36_apply, val_main_v35_apply, val_main_v34_apply, val_main_v32_apply, val_main_v33_apply, logistic_read, tanh_read]
  rw [show val_main_v18 (F := Ideal) x0 x1 x5 x6 i = val_main_v9 (F := Ideal) x0 x1 x5 x6 i from rfl,
    show val_main_v31 (F := Ideal) x0 x1 x9 x10 i = val_main_v9 (F := Ideal) x0 x1 x9 x10 i from rfl, logistic_read, logistic_read]
  have hx : x2 (ix2 (i 0) (i 1)) = x2 i := congrArg x2 (eq_ix2 i).symm
  unfold cell cellAt
  rw [hx]
  rfl

end Cert.ReferenceIdeal.RefCell

end
-- ==== Proof.lean ====
/-
  One step of a long short-term memory cell as a blocked kernel, against its plain reference.

  Both programs compute, for a batch of 4096 rows,

      out(p, n) = tanh( c(p,n) s(gate_f(p,n)) + s(gate_i(p,n)) tanh(gate_c(p,n)) ) s(gate_o(p,n)),
      gate_g(p, n) = sum_{k<2048} (x_p , h_p)(k) w_g(k, n) + b_g(0, n),

  with s the logistic function. The reference joins x and h into rows of length 2048 and multiplies by each
  gate's matrix; the kernel joins the four gates' matrices into one 2048 x 4096 matrix, multiplies a block of
  512 rows of x by its upper half and the same rows of h by its lower half, and cuts the 4096 columns back
  into the four gates. At exact values the two agree entry by entry: a sum over 2048 positions is the sum
  over its two halves, whatever the terms, and a column of the joined matrix is a column of one gate's
  matrix. Nothing here needs the inputs to be finite.

  The frames: each kernel program is three host operations and one launch over a grid of 8 points; the host
  operations write buffers of their own and the launch writes back only its result, so the arguments end as
  they were launched. The reference is a straight line of host operations.
  The word-level kernel and its idealization are the same text (the idealization rewrote nothing), so the
  idealization preserves the kernel with nothing to state.
-/
import proofs.«125786_j61220463837880_2_alg».proof.Defs
import proofs.«125786_j61220463837880_2_alg».proof.Proof.Gen.Kernel
import proofs.«125786_j61220463837880_2_alg».proof.Proof.Gen.KernelIdeal
import proofs.«125786_j61220463837880_2_alg».proof.Proof.Gen.ReferenceIdeal
import proofs.«125786_j61220463837880_2_alg».proof.Proof.Gen.Pre_finite_inputs
import proofs.«125786_j61220463837880_2_alg».proof.Proof.Gen.ReferenceIdeal.Run
import proofs.«125786_j61220463837880_2_alg».proof.Proof.Gen.ReferenceIdeal.Read
import proofs.«125786_j61220463837880_2_alg».proof.Proof.KernelFrame
import proofs.«125786_j61220463837880_2_alg».proof.Proof.KernelIdealFrame
import proofs.«125786_j61220463837880_2_alg».proof.Proof.KernelValue
import proofs.«125786_j61220463837880_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel program runs to its end and keeps its arguments. -/
theorem frame_kernel : Cert.frame_Kernel := fun m ρ _ => Cert.Kernel.Hand.frame m ρ

/-- So does the kernel program read at exact values. -/
theorem frame_kernel_ideal : Cert.frame_KernelIdeal := fun m ρ _ => Cert.KernelIdeal.Hand.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eleven arguments, both programs end with the cell function of those
    arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v36_eq, Cert.ReferenceIdeal.RefCell.result_is_cell, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
